-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v30)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v30) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v37) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S128x128 : Shape := ⟨2, ![128, 128]⟩
abbrev S600000 : Shape := ⟨1, ![600000]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_

variable [Facts]

def fn_part1 {F : FTy → Type} [FloatOps F] (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  main_v18

def fn {F : FTy → Type} [FloatOps F] (main_arg0 : FVec F S100000x128 .f32) (main_arg1 : FVec F S128x128 .f32) (main_arg2 : FVec F S128x128 .f32) (main_arg3 : FVec F S128x128 .f32) (main_arg4 : IVec S600000 32) (main_arg5 : IVec S600000 32) (main_arg6 : IVec S600000 32) (main_arg7 : IVec S600000 32) (main_arg8 : IVec S600000 32) (main_arg9 : IVec S600000 32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg1
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128x128 .f32 := Host.absf main_arg2
  let main_cst_2 : FVec F S_ .f32 := constant S_ .f32 0x7F800000#32
  let main_v10 : FVec F S128x128 .f32 := broadcastInDim S128x128 ![] bcast_S_S128x128 main_cst_2
  let main_v11 : IVec S128x128 1 := cmpf .olt main_v9 main_v10
  let main_c_3 : IVec S_ 1 := constantI S_ 1 1#1
  let main_v12 : IVec S_ 1 := (fun x v => Host.reduce IntOp.andi x v reducesTo_S128x128_S_d0_1 h_S_) main_v11 main_c_3
  let main_v13 : IVec S_ 1 := andi main_v8 main_v12
  let main_v14 : FVec F S128x128 .f32 := Host.absf main_arg3
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_v13 main_v16
-- ==== Kernel.lean ====
abbrev S100000x128 : Shape := ⟨2, ![100000, 128]⟩
abbrev S128x128 : Shape := ⟨2, ![128, 128]⟩
abbrev S600000 : Shape := ⟨1, ![600000]⟩
abbrev S_ : Shape := ⟨0, ![]⟩
abbrev S600000x1 : Shape := ⟨2, ![600000, 1]⟩
abbrev S600000x128 : Shape := ⟨2, ![600000, 128]⟩
abbrev S5000x128 : Shape := ⟨2, ![5000, 128]⟩

abbrev nBuf : Space → Nat
  | .hbm => 50
  | .vmem => 11
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S600000, .i32⟩
  | .hbm, ⟨5, _⟩ => ⟨S600000, .i32⟩
  | .hbm, ⟨6, _⟩ => ⟨S600000, .i32⟩
  | .hbm, ⟨7, _⟩ => ⟨S600000, .i32⟩
  | .hbm, ⟨8, _⟩ => ⟨S600000, .i32⟩
  | .hbm, ⟨9, _⟩ => ⟨S600000, .i32⟩
  | .hbm, ⟨10, _⟩ => ⟨S_, .i32⟩
  | .hbm, ⟨11, _⟩ => ⟨S600000, .i32⟩
  | .hbm, ⟨12, _⟩ => ⟨S600000, .i1⟩
  | .hbm, ⟨13, _⟩ => ⟨S_, .i32⟩
  | .hbm, ⟨14, _⟩ => ⟨S600000, .i32⟩
  | .hbm, ⟨15, _⟩ => ⟨S600000, .i32⟩
  | .hbm, ⟨16, _⟩ => ⟨S600000, .i32⟩
  | .hbm, ⟨17, _⟩ => ⟨S600000x1, .i32⟩
  | .hbm, ⟨18, _⟩ => ⟨S600000x128, .f32⟩
  | .hbm, ⟨19, _⟩ => ⟨S_, .f32⟩
  | .hbm, ⟨20, _⟩ => ⟨S100000x128, .f32⟩
  | .hbm, ⟨21, _⟩ => ⟨S600000x1, .i32⟩
  | .hbm, ⟨22, _⟩ => ⟨S100000x128, .f32⟩
  | .hbm, ⟨23, _⟩ => ⟨S_, .i32⟩
  | .hbm, ⟨24, _⟩ => ⟨S600000, .i32⟩
  | .hbm, ⟨25, _⟩ => ⟨S600000, .i1⟩
  | .hbm, ⟨26, _⟩ => ⟨S_, .i32⟩
  | .hbm, ⟨27, _⟩ => ⟨S600000, .i32⟩
  | .hbm, ⟨28, _⟩ => ⟨S600000, .i32⟩
  | .hbm, ⟨29, _⟩ => ⟨S600000, .i32⟩
  | .hbm, ⟨30, _⟩ => ⟨S600000x1, .i32⟩
  | .hbm, ⟨31, _⟩ => ⟨S600000x128, .f32⟩
  | .hbm, ⟨32, _⟩ => ⟨S_, .f32⟩
  | .hbm, ⟨33, _⟩ => ⟨S100000x128, .f32⟩
  | .hbm, ⟨34, _⟩ => ⟨S600000x1, .i32⟩
  | .hbm, ⟨35, _⟩ => ⟨S100000x128, .f32⟩
  | .hbm, ⟨36, _⟩ => ⟨S_, .i32⟩
  | .hbm, ⟨37, _⟩ => ⟨S600000, .i32⟩
  | .hbm, ⟨38, _⟩ => ⟨S600000, .i1⟩
  | .hbm, ⟨39, _⟩ => ⟨S_, .i32⟩
  | .hbm, ⟨40, _⟩ => ⟨S600000, .i32⟩
  | .hbm, ⟨41, _⟩ => ⟨S600000, .i32⟩
  | .hbm, ⟨42, _⟩ => ⟨S600000, .i32⟩
  | .hbm, ⟨43, _⟩ => ⟨S600000x1, .i32⟩
  | .hbm, ⟨44, _⟩ => ⟨S600000x128, .f32⟩
  | .hbm, ⟨45, _⟩ => ⟨S_, .f32⟩
  | .hbm, ⟨46, _⟩ => ⟨S100000x128, .f32⟩
  | .hbm, ⟨47, _⟩ => ⟨S600000x1, .i32⟩
  | .hbm, ⟨48, _⟩ => ⟨S100000x128, .f32⟩
  | .hbm, ⟨49, _⟩ => ⟨S100000x128, .f32⟩
  | .local _ .vmem, ⟨0, _⟩ => ⟨S5000x128, .f32⟩
  | .local _ .vmem, ⟨1, _⟩ => ⟨S5000x128, .f32⟩
  | .local _ .vmem, ⟨2, _⟩ => ⟨S5000x128, .f32⟩
  | .local _ .vmem, ⟨3, _⟩ => ⟨S5000x128, .f32⟩
  | .local _ .vmem, ⟨4, _⟩ => ⟨S5000x128, .f32⟩
  | .local _ .vmem, ⟨5, _⟩ => ⟨S5000x128, .f32⟩
  | .local _ .vmem, ⟨6, _⟩ => ⟨S128x128, .f32⟩
  | .local _ .vmem, ⟨7, _⟩ => ⟨S128x128, .f32⟩
  | .local _ .vmem, ⟨8, _⟩ => ⟨S128x128, .f32⟩
  | .local _ .vmem, ⟨9, _⟩ => ⟨S5000x128, .f32⟩
  | .local _ .vmem, ⟨10, _⟩ => ⟨S5000x128, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_c : Ref sig .tc := ⟨.hbm, 10, rfl⟩
abbrev main_v0 : Ref sig .tc := ⟨.hbm, 11, rfl⟩
abbrev main_v1 : Ref sig .tc := ⟨.hbm, 12, rfl⟩
abbrev main_c_0 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_cst : Ref sig .tc := ⟨.hbm, 19, rfl⟩
abbrev main_v7 : Ref sig .tc := ⟨.hbm, 20, rfl⟩
abbrev main_v8 : Ref sig .tc := ⟨.hbm, 21, rfl⟩
abbrev main_v9 : Ref sig .tc := ⟨.hbm, 22, rfl⟩
abbrev main_c_1 : Ref sig .tc := ⟨.hbm, 23, rfl⟩
abbrev main_v10 : Ref sig .tc := ⟨.hbm, 24, rfl⟩
abbrev main_v11 : Ref sig .tc := ⟨.hbm, 25, rfl⟩
abbrev main_c_2 : Ref sig .tc := ⟨.hbm, 26, rfl⟩
abbrev main_v12 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_cst_3 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_c_4 : Ref sig .tc := ⟨.hbm, 36, rfl⟩
abbrev main_v20 : Ref sig .tc := ⟨.hbm, 37, rfl⟩
abbrev main_v21 : Ref sig .tc := ⟨.hbm, 38, rfl⟩
abbrev main_c_5 : Ref sig .tc := ⟨.hbm, 39, rfl⟩
abbrev main_v22 : Ref sig .tc := ⟨.hbm, 40, rfl⟩
abbrev main_v23 : Ref sig .tc := ⟨.hbm, 41, rfl⟩
abbrev main_v24 : Ref sig .tc := ⟨.hbm, 42, rfl⟩
abbrev main_v25 : Ref sig .tc := ⟨.hbm, 43, rfl⟩
abbrev main_v26 : Ref sig .tc := ⟨.hbm, 44, rfl⟩
abbrev main_cst_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg6_1 : Ref sig .tc := ⟨.vmem, 10, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S5000x128 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 2 → Memref sig .tc .vmem S5000x128 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

class Facts₀ : Prop where
  bcast_S_S600000 : S_.BroadcastsInDim S600000 (![] : Fin 0 → Fin S600000.rank)
  bcast_S600000_S600000x1_0 : S600000.BroadcastsInDim S600000x1 (![0] : Fin 1 → Fin S600000x1.rank)
  bcast_S_S100000x128 : S_.BroadcastsInDim S100000x128 (![] : Fin 0 → Fin S100000x128.rank)
  inb_S5000x128_S5000x128_0_0 : ∀ a, (![0, 0] : Fin 2 → Nat) a + S5000x128.size a ≤ S5000x128.size a
  h_S5000x128 : 0 < S5000x128.numel
  shapeCasts_S5000x128_S5000x128 : S5000x128.ShapeCasts S5000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S5000x128_S128x128_S5000x128_1_0_0_1_n_n_wf : DotDims.WF S5000x128 S128x128 S5000x128 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x128.size a ≤ S100000x128.size a
  hwx0_0 : ∀ i : grid0.Coords, EltTy.bits .f32 = 32 ∨ (Rect.block (s := S100000x128) S5000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5000x128.size a ≤ S100000x128.size a
  hwx0_1 : ∀ i : grid0.Coords, EltTy.bits .f32 = 32 ∨ (Rect.block (s := S100000x128) S5000x128.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x128.size a ≤ S100000x128.size a
  hwx0_2 : ∀ i : grid0.Coords, EltTy.bits .f32 = 32 ∨ (Rect.block (s := S100000x128) S5000x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128x128.size a ≤ S128x128.size a
  hwx0_3 : ∀ i : grid0.Coords, EltTy.bits .f32 = 32 ∨ (Rect.block (s := S128x128) S128x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128x128.size a ≤ S128x128.size a
  hwx0_5 : ∀ i : grid0.Coords, EltTy.bits .f32 = 32 ∨ (Rect.block (s := S128x128) S128x128.size (cc0_transform_5 i) (hinb0_5 i)).WholeWords (EltTy.packing .f32)
  hstage0_6 : ∀ j, (stage0_6 j).IsWhole
  nbuf0_6 : grid0.bufCount reads0_6 false = 2
  hreads0_6 : ∀ i i' : grid0.Coords, (∀ a, reads0_6 a = true → i a = i' a) → cc0_transform_6 i = cc0_transform_6 i'
  hinb0_6 : ∀ (i : grid0.Coords) a, (cc0_transform_6 i a + 1) * S5000x128.size a ≤ S100000x128.size a
  hwx0_6 : ∀ i : grid0.Coords, EltTy.bits .f32 = 32 ∨ (Rect.block (s := S100000x128) S5000x128.size (cc0_transform_6 i) (hinb0_6 i)).WholeWords (EltTy.packing .f32)

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S5000x128_S128x128_S5000x128_1_0_0_1_n_n : DotDims S5000x128 S128x128 S5000x128 where
  lhsContracting := [1]
  rhsContracting := [0]
  lhsNonContracting := [0]
  rhsNonContracting := [1]
  lhsBatch := []
  rhsBatch := []
  wf := dot_S5000x128_S128x128_S5000x128_1_0_0_1_n_n_wf

abbrev win0_0 : Pipeline.Window sig grid0 :=
  Pipeline.Window.ofSpec (Memref.whole main_v9) S5000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v19) S5000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v29) S5000x128.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_arg1) S128x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg2) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg3) S128x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v30) S5000x128.size cc0_transform_6 reads0_6 true false 2 stage0_6 sem0_6
    hrank0 hreads0_6 hinb0_6 nbuf0_6 (Memref.isWhole_whole _) hwx0_6 hstage0_6

abbrev win0 : Fin 7 → Pipeline.Window sig grid0 := fun | 0 => win0_0 | 1 => win0_1 | 2 => win0_2 | 3 => win0_3 | 4 => win0_4 | 5 => win0_5 | 6 => win0_6 | ⟨_ + 7, h⟩ => absurd h (Nat.not_lt.2 (Nat.le_add_left _ _))
abbrev spec0 : Fin 7 → Pipeline.WinSpec sig grid0.rank := fun w => (win0 w).toWinSpec

class Facts : Prop extends Facts₀ where

variable [Facts]
-- ==== ReferenceIdeal.lean ====
abbrev S100000x128 : Shape := ⟨2, ![100000, 128]⟩
abbrev S128x128 : Shape := ⟨2, ![128, 128]⟩
abbrev S600000 : Shape := ⟨1, ![600000]⟩
abbrev S_ : Shape := ⟨0, ![]⟩
abbrev S600000x1 : Shape := ⟨2, ![600000, 1]⟩
abbrev S600000x128 : Shape := ⟨2, ![600000, 128]⟩

abbrev nBuf : Space → Nat
  | .hbm => 60
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S128x128, .f32⟩
  | .hbm, ⟨2, _⟩ => ⟨S128x128, .f32⟩
  | .hbm, ⟨3, _⟩ => ⟨S128x128, .f32⟩
  | .hbm, ⟨4, _⟩ => ⟨S600000, .i32⟩
  | .hbm, ⟨5, _⟩ => ⟨S600000, .i32⟩
  | .hbm, ⟨6, _⟩ => ⟨S600000, .i32⟩
  | .hbm, ⟨7, _⟩ => ⟨S600000, .i32⟩
  | .hbm, ⟨8, _⟩ => ⟨S600000, .i32⟩
  | .hbm, ⟨9, _⟩ => ⟨S600000, .i32⟩
  | .hbm, ⟨10, _⟩ => ⟨S_, .f32⟩
  | .hbm, ⟨11, _⟩ => ⟨S100000x128, .f32⟩
  | .hbm, ⟨12, _⟩ => ⟨S_, .i32⟩
  | .hbm, ⟨13, _⟩ => ⟨S600000, .i32⟩
  | .hbm, ⟨14, _⟩ => ⟨S600000, .i1⟩
  | .hbm, ⟨15, _⟩ => ⟨S_, .i32⟩
  | .hbm, ⟨16, _⟩ => ⟨S600000, .i32⟩
  | .hbm, ⟨17, _⟩ => ⟨S600000, .i32⟩
  | .hbm, ⟨18, _⟩ => ⟨S600000, .i32⟩
  | .hbm, ⟨19, _⟩ => ⟨S600000x1, .i32⟩
  | .hbm, ⟨20, _⟩ => ⟨S600000x128, .f32⟩
  | .hbm, ⟨21, _⟩ => ⟨S_, .f32⟩
  | .hbm, ⟨22, _⟩ => ⟨S100000x128, .f32⟩
  | .hbm, ⟨23, _⟩ => ⟨S600000x1, .i32⟩
  | .hbm, ⟨24, _⟩ => ⟨S100000x128, .f32⟩
  | .hbm, ⟨25, _⟩ => ⟨S100000x128, .f32⟩
  | .hbm, ⟨26, _⟩ => ⟨S100000x128, .f32⟩
  | .hbm, ⟨27, _⟩ => ⟨S_, .i32⟩
  | .hbm, ⟨28, _⟩ => ⟨S600000, .i32⟩
  | .hbm, ⟨29, _⟩ => ⟨S600000, .i1⟩
  | .hbm, ⟨30, _⟩ => ⟨S_, .i32⟩
  | .hbm, ⟨31, _⟩ => ⟨S600000, .i32⟩
  | .hbm, ⟨32, _⟩ => ⟨S600000, .i32⟩
  | .hbm, ⟨33, _⟩ => ⟨S600000, .i32⟩
  | .hbm, ⟨34, _⟩ => ⟨S600000x1, .i32⟩
  | .hbm, ⟨35, _⟩ => ⟨S600000x128, .f32⟩
  | .hbm, ⟨36, _⟩ => ⟨S_, .f32⟩
  | .hbm, ⟨37, _⟩ => ⟨S100000x128, .f32⟩
  | .hbm, ⟨38, _⟩ => ⟨S600000x1, .i32⟩
  | .hbm, ⟨39, _⟩ => ⟨S100000x128, .f32⟩
  | .hbm, ⟨40, _⟩ => ⟨S100000x128, .f32⟩
  | .hbm, ⟨41, _⟩ => ⟨S100000x128, .f32⟩
  | .hbm, ⟨42, _⟩ => ⟨S_, .i32⟩
  | .hbm, ⟨43, _⟩ => ⟨S600000, .i32⟩
  | .hbm, ⟨44, _⟩ => ⟨S600000, .i1⟩
  | .hbm, ⟨45, _⟩ => ⟨S_, .i32⟩
  | .hbm, ⟨46, _⟩ => ⟨S600000, .i32⟩
  | .hbm, ⟨47, _⟩ => ⟨S600000, .i32⟩
  | .hbm, ⟨48, _⟩ => ⟨S600000, .i32⟩
  | .hbm, ⟨49, _⟩ => ⟨S600000x1, .i32⟩
  | .hbm, ⟨50, _⟩ => ⟨S600000x128, .f32⟩
  | .hbm, ⟨51, _⟩ => ⟨S_, .f32⟩
  | .hbm, ⟨52, _⟩ => ⟨S100000x128, .f32⟩
  | .hbm, ⟨53, _⟩ => ⟨S600000x1, .i32⟩
  | .hbm, ⟨54, _⟩ => ⟨S100000x128, .f32⟩
  | .hbm, ⟨55, _⟩ => ⟨S100000x128, .f32⟩
  | .hbm, ⟨56, _⟩ => ⟨S100000x128, .f32⟩
  | .hbm, ⟨57, _⟩ => ⟨S_, .f32⟩
  | .hbm, ⟨58, _⟩ => ⟨S100000x128, .f32⟩
  | .hbm, ⟨59, _⟩ => ⟨S100000x128, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_cst : Ref sig .tc := ⟨.hbm, 10, rfl⟩
abbrev main_v0 : Ref sig .tc := ⟨.hbm, 11, rfl⟩
abbrev main_c : Ref sig .tc := ⟨.hbm, 12, rfl⟩
abbrev main_v1 : Ref sig .tc := ⟨.hbm, 13, rfl⟩
abbrev main_v2 : Ref sig .tc := ⟨.hbm, 14, rfl⟩
abbrev main_c_0 : Ref sig .tc := ⟨.hbm, 15, rfl⟩
abbrev main_v3 : Ref sig .tc := ⟨.hbm, 16, rfl⟩
abbrev main_v4 : Ref sig .tc := ⟨.hbm, 17, rfl⟩
abbrev main_v5 : Ref sig .tc := ⟨.hbm, 18, rfl⟩
abbrev main_v6 : Ref sig .tc := ⟨.hbm, 19, rfl⟩
abbrev main_v7 : Ref sig .tc := ⟨.hbm, 20, rfl⟩
abbrev main_cst_1 : Ref sig .tc := ⟨.hbm, 21, rfl⟩
abbrev main_v8 : Ref sig .tc := ⟨.hbm, 22, rfl⟩
abbrev main_v9 : Ref sig .tc := ⟨.hbm, 23, rfl⟩
abbrev main_v10 : Ref sig .tc := ⟨.hbm, 24, rfl⟩
abbrev main_v11 : Ref sig .tc := ⟨.hbm, 25, rfl⟩
abbrev main_v12 : Ref sig .tc := ⟨.hbm, 26, rfl⟩
abbrev main_c_2 : Ref sig .tc := ⟨.hbm, 27, rfl⟩
abbrev main_v13 : Ref sig .tc := ⟨.hbm, 28, rfl⟩
abbrev main_v14 : Ref sig .tc := ⟨.hbm, 29, rfl⟩
abbrev main_c_3 : Ref sig .tc := ⟨.hbm, 30, rfl⟩
abbrev main_v15 : Ref sig .tc := ⟨.hbm, 31, rfl⟩
abbrev main_v16 : Ref sig .tc := ⟨.hbm, 32, rfl⟩
abbrev main_v17 : Ref sig .tc := ⟨.hbm, 33, rfl⟩
abbrev main_v18 : Ref sig .tc := ⟨.hbm, 34, rfl⟩
abbrev main_v19 : Ref sig .tc := ⟨.hbm, 35, rfl⟩
abbrev main_cst_4 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_c_5 : Ref sig .tc := ⟨.hbm, 42, rfl⟩
abbrev main_v25 : Ref sig .tc := ⟨.hbm, 43, rfl⟩
abbrev main_v26 : Ref sig .tc := ⟨.hbm, 44, rfl⟩
abbrev main_c_6 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_cst_7 : Ref sig .tc := ⟨.hbm, 51, rfl⟩
abbrev main_v32 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_call0_cst : Ref sig .tc := ⟨.hbm, 57, rfl⟩
abbrev main_call0_v0 : Ref sig .tc := ⟨.hbm, 58, rfl⟩
abbrev main_v37 : Ref sig .tc := ⟨.hbm, 59, rfl⟩

abbrev nD : Nat := 1
abbrev τ : Topo := Topo.v7x

variable {F : FTy → Type} [FloatOps F]

class Facts₀ : Prop where
  bcast_S_S100000x128 : S_.BroadcastsInDim S100000x128 (![] : Fin 0 → Fin S100000x128.rank)
  bcast_S_S600000 : S_.BroadcastsInDim S600000 (![] : Fin 0 → Fin S600000.rank)
  bcast_S600000_S600000x1_0 : S600000.BroadcastsInDim S600000x1 (![0] : Fin 1 → Fin S600000x1.rank)
  gather_S100000x128_S600000x1_S600000x128_1_0_n_n_0_1_1128_wf : GatherDims.WF S100000x128 S600000x1 S600000x128 [1] [0] [] [0] [] 1 ![1, 128]
  scatter_S100000x128_S600000x1_S600000x128_1_0_0_1_wf : ScatterDims.WF S100000x128 S600000x1 S600000x128 [1] [0] [0] 1
  dot_S100000x128_S128x128_S100000x128_1_0_0_1_n_n_wf : DotDims.WF S100000x128 S128x128 S100000x128 [1] [0] [0] [1] [] []

variable [Facts₀]

def gather_S100000x128_S600000x1_S600000x128_1_0_n_n_0_1_1128 : GatherDims S100000x128 S600000x1 S600000x128 where
  offsetDims := [1]
  collapsedSliceDims := [0]
  operandBatchingDims := []
  startIndicesBatchingDims := []
  startIndexMap := [0]
  indexVectorDim := 1
  sliceSizes := ![1, 128]
  wf := gather_S100000x128_S600000x1_S600000x128_1_0_n_n_0_1_1128_wf
def scatter_S100000x128_S600000x1_S600000x128_1_0_0_1 : ScatterDims S100000x128 S600000x1 S600000x128 where
  updateWindowDims := [1]
  insertedWindowDims := [0]
  scatterDimsToOperandDims := [0]
  indexVectorDim := 1
  wf := scatter_S100000x128_S600000x1_S600000x128_1_0_0_1_wf
def dot_S100000x128_S128x128_S100000x128_1_0_0_1_n_n : DotDims S100000x128 S128x128 S100000x128 where
  lhsContracting := [1]
  rhsContracting := [0]
  lhsNonContracting := [0]
  rhsNonContracting := [1]
  lhsBatch := []
  rhsBatch := []
  wf := dot_S100000x128_S128x128_S100000x128_1_0_0_1_n_n_wf

class Facts : Prop extends Facts₀ where

variable [Facts]
-- ==== Proof.LibPlainDot.lean ====
/-
  A plain matrix product read at one entry.

  For the dimension numbers of an `M × K` by `K × N` product (the left operand contracted on its columns, the
  right on its rows, no batch axis) the entry at row `p`, column `q` of a `tpu.matmul` into the zero
  accumulator, and of the host's `dot_general`, is at the ideal values the sum over `k` of the left operand at
  `(p, k)` times the right operand at `(k, q)`. The contraction index of the dimension numbers is re-indexed by
  its one coordinate, so the sum runs over the literal `Fin K`.
-/
import Idealize.ShloMosaic.Lib.ValueIdx
import Idealize.ShloMosaic.PureOps.Ideal.Laws

noncomputable section

open scoped BigOperators

namespace Cert.Lib.PlainDot

open Idealize.ShloMosaic Idealize.ShloMosaic.ValueIdx

variable {M K N : Nat}

/-- The left operand's index at output entry `(p, q)` and contraction position `k` is `(p, k)`. -/
theorem lhsIdx_plain (p : Fin M) (q : Fin N) (k : Fin K) :
    (DotDims.plain M K N).lhsIdx (ix2 p q) ((contrEquiv1 (DotDims.plain M K N) K rfl rfl).symm k) = ix2 p k := by
  have hk := contrEquiv1_symm_val (DotDims.plain M K N) K rfl rfl k
  funext a
  apply Fin.ext
  match a with
  | ⟨0, _⟩ => rfl
  | ⟨1, _⟩ => exact ((DotDims.plain M K N).lhsIdx_val_of_single rfl (ix2 p q) _).trans hk

/-- The right operand's index at output entry `(p, q)` and contraction position `k` is `(k, q)`. -/
theorem rhsIdx_plain (p : Fin M) (q : Fin N) (k : Fin K) :
    (DotDims.plain M K N).rhsIdx (ix2 p q) ((contrEquiv1 (DotDims.plain M K N) K rfl rfl).symm k) = ix2 k q := by
  have hk := contrEquiv1_symm_val (DotDims.plain M K N) K rfl rfl k
  funext a
  apply Fin.ext
  match a with
  | ⟨0, _⟩ => exact ((DotDims.plain M K N).rhsIdx_val_of_single rfl (ix2 p q) _).trans hk
  | ⟨1, _⟩ => rfl

/-- A `tpu.matmul` into the zero accumulator, at entry `(p, q)`. -/
theorem matmul_zero_apply {φ₁ φ₂ : FTy} (prec : Option ContractPrecision)
    (l : FVec Ideal ⟨2, ![M, K]⟩ φ₁) (r : FVec Ideal ⟨2, ![K, N]⟩ φ₂) (p : Fin M) (q : Fin N) :
    FloatOps.matmul (DotDims.plain M K N) prec l r (constant ⟨2, ![M, N]⟩ .f32 0x00000000#32) (ix2 p q)
      = ∑ k : Fin K, l (ix2 p k) * r (ix2 k q) := by
  rw [Ideal.matmul_constant_zero_apply, ← Equiv.sum_comp (contrEquiv1 (DotDims.plain M K N) K rfl rfl).symm]
  exact Finset.sum_congr rfl fun k _ => by rw [lhsIdx_plain, rhsIdx_plain]

/-- The host's `dot_general`, at entry `(p, q)`. -/
theorem dotGeneral_apply {φ₁ φ₂ : FTy} (prec : Option ContractPrecision) (sched : HostSchedule)
    (l : FVec Ideal ⟨2, ![M, K]⟩ φ₁) (r : FVec Ideal ⟨2, ![K, N]⟩ φ₂) (p : Fin M) (q : Fin N) :
    FloatOps.dotGeneral (DotDims.plain M K N) prec sched l r (ix2 p q) = ∑ k : Fin K, l (ix2 p k) * r (ix2 k q) := by
  rw [Ideal.dotGeneral_apply, ← Equiv.sum_comp (contrEquiv1 (DotDims.plain M K N) K rfl rfl).symm]
  exact Finset.sum_congr rfl fun k _ => by rw [lhsIdx_plain, rhsIdx_plain]

end Cert.Lib.PlainDot

end
-- ==== Proof.TileValue.lean ====
/-
  What the kernel body computes on one tile of 5000 nodes.

  The body loads a 5000 × 128 tile of each relation's aggregated features and the three 128 × 128 weights,
  multiplies each tile by its weight into a zero accumulator, adds the three products from the left and takes
  the maximum with zero. Rounding the operands to bf16 on the way into the products changes nothing on the
  extended reals, so the tile's entry at row `p`, channel `q` is the positive part of
  Σ_k x_0[p,k]·w_0[k,q] + Σ_k x_1[p,k]·w_1[k,q] + Σ_k x_2[p,k]·w_2[k,q].
-/
import proofs.«148404_j62414464745626_1_alg».proof.Proof.Gen.KernelIdeal.Skeleton
import proofs.«148404_j62414464745626_1_alg».proof.Proof.LibPlainDot
import Idealize.ShloMosaic.Lib.Pipeline.Value

noncomputable section

open scoped BigOperators

namespace Cert.RelConv

open Idealize.ShloMosaic Idealize.ShloMosaic.ValueIdx Cert.KernelIdeal Cert.KernelIdeal.Gen

/-- The body's result on a tile, at row `p` and channel `q`. -/
theorem tile_apply (x0 x1 x2 : Vec Ideal S5000x128 .f32) (w0 w1 w2 : Vec Ideal S128x128 .f32) (p : Fin 5000) (q : Fin 128) :
    k0_pay1 (F := Ideal) x0 x1 x2 w0 w1 w2 (ix2 p q)
      = max ((∑ k : Fin 128, x0 (ix2 p k) * w0 (ix2 k q)) + (∑ k : Fin 128, x1 (ix2 p k) * w1 (ix2 k q))
          + (∑ k : Fin 128, x2 (ix2 p k) * w2 (ix2 k q))) 0 := by
  unfold k0_pay1
  simp only [shapeCast_self]
  show max ((FloatOps.matmul (DotDims.plain 5000 128 128) none x0 w0 (constant ⟨2, ![5000, 128]⟩ .f32 0x00000000#32) (ix2 p q)
      + FloatOps.matmul (DotDims.plain 5000 128 128) none x1 w1 (constant ⟨2, ![5000, 128]⟩ .f32 0x00000000#32) (ix2 p q))
      + FloatOps.matmul (DotDims.plain 5000 128 128) none x2 w2 (constant ⟨2, ![5000, 128]⟩ .f32 0x00000000#32) (ix2 p q))
      (Ideal.ofBits .f32 0x00000000#32) = _
  rw [Cert.Lib.PlainDot.matmul_zero_apply, Cert.Lib.PlainDot.matmul_zero_apply, Cert.Lib.PlainDot.matmul_zero_apply,
    Ideal.ofBits_zero_f32]

end Cert.RelConv

end
-- ==== Proof.Layer.lean ====
/-
  One relational graph-convolution layer as a function of its aggregated features.

  For the three relations r = 0, 1, 2 let `a_r` be the 100000 × 128 array of node features summed along the
  edges of relation r, and `w_r` the relation's 128 × 128 weight. At node `n` and output channel `q` the layer is

      max( Σ_k a_0[n,k]·w_0[k,q]  +  Σ_k a_1[n,k]·w_1[k,q]  +  Σ_k a_2[n,k]·w_2[k,q] ,  0 ),

  the positive part of the sum of the three matrix products, on the extended reals, the three sums added from
  the left. Row `n` of the result depends on row `n` of each `a_r` only, so the array can be computed in any
  number of row tiles.
-/
import Idealize.ShloMosaic.Lib.ValueIdx
import Idealize.ShloMosaic.PureOps.Ideal.Laws

noncomputable section

open scoped BigOperators

namespace Cert.RelConv

open Idealize.ShloMosaic Idealize.ShloMosaic.ValueIdx

/-- The node features: 100000 nodes, 128 channels. -/
abbrev Feat : Shape := ⟨2, ![100000, 128]⟩
/-- A relation's weight: 128 input channels by 128 output channels. -/
abbrev Wt : Shape := ⟨2, ![128, 128]⟩

/-- The layer, entry by entry: the positive part of the three products' sum. -/
def layer (a0 a1 a2 : FVec Ideal Feat .f32) (w0 w1 w2 : FVec Ideal Wt .f32) : FVec Ideal Feat .f32 := fun i =>
  max ((∑ k : Fin 128, a0 (ix2 (n0 := 100000) (n1 := 128) (i 0) k) * w0 (ix2 (n0 := 128) (n1 := 128) k (i 1)))
     + (∑ k : Fin 128, a1 (ix2 (n0 := 100000) (n1 := 128) (i 0) k) * w1 (ix2 (n0 := 128) (n1 := 128) k (i 1)))
     + (∑ k : Fin 128, a2 (ix2 (n0 := 100000) (n1 := 128) (i 0) k) * w2 (ix2 (n0 := 128) (n1 := 128) k (i 1)))) 0

/-- The layer at node `n`, channel `q`. -/
theorem layer_apply (a0 a1 a2 : FVec Ideal Feat .f32) (w0 w1 w2 : FVec Ideal Wt .f32) (n : Fin 100000) (q : Fin 128) :
    layer a0 a1 a2 w0 w1 w2 (ix2 n q)
      = max ((∑ k : Fin 128, a0 (ix2 n k) * w0 (ix2 k q)) + (∑ k : Fin 128, a1 (ix2 n k) * w1 (ix2 k q))
          + (∑ k : Fin 128, a2 (ix2 n k) * w2 (ix2 k q))) 0 := rfl

end Cert.RelConv

end
-- ==== Proof.Whole.lean ====
/-
  From the tiles to the whole output array.

  The grid has 20 points; at point `t` every feature window and the output window sit on rows
  5000·t … 5000·t + 4999 (all 128 channels), and each weight window is the whole weight. So what point `t`
  writes back — the body's result on the three feature tiles and the three weights — is tile `t` of the layer
  of the whole arrays: row `p` of the tile is row 5000·t + p of the array, and a row of the layer depends on
  that row of the features only. The 20 tiles cover all 100000 rows (row `r` is in tile `r / 5000`), so after
  the run the output array is the layer of the arrays the region was entered with.
-/
import proofs.«148404_j62414464745626_1_alg».proof.Proof.Gen.KernelIdeal.Value
import proofs.«148404_j62414464745626_1_alg».proof.Proof.TileValue
import proofs.«148404_j62414464745626_1_alg».proof.Proof.Layer

noncomputable section

open scoped BigOperators

namespace Cert.RelConv

open Cert.KernelIdeal Cert.KernelIdeal.Gen Idealize.ShloMosaic Idealize.ShloMosaic.TcCoe Idealize.SL.Sem
open Idealize.ShloMosaic.ValueIdx
open Idealize.ShloMosaic.Pipeline (Dat)

variable (m : (ℓ : Loc nD τ sig) → Buf (Elt Ideal) ℓ) (ρ : Dev nD → PrngReg)

/-- The body's accesses start at the origin of their buffers. -/
theorem origin : (![0, 0] : Fin 2 → Nat) = fun _ => 0 := funext fun a => by fin_cases a <;> rfl

/-- Where the windows sit at point `t`: the three feature windows on the output's row tile, all of them on the
    one column tile, the weight windows at the origin, and the output's row tile is the point's number. -/
theorem windows_at : ∀ t : Fin cfg0.N,
    win0_0.index t (0 : Fin 2) = win0_6.index t (0 : Fin 2) ∧ win0_0.index t (1 : Fin 2) = 0
    ∧ win0_1.index t (0 : Fin 2) = win0_6.index t (0 : Fin 2) ∧ win0_1.index t (1 : Fin 2) = 0
    ∧ win0_2.index t (0 : Fin 2) = win0_6.index t (0 : Fin 2) ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = t.val ∧ win0_6.index t (1 : Fin 2) = 0 :=
  (by decide +kernel : ∀ t : Fin grid0.N, _)

/-! ## Where an entry of each window's tile sits in the window's array -/

/-- Entry `(p, k)` of relation 0's feature tile sits at the output tile's row and at channel `k`. -/
theorem feat0_emb (t : Fin cfg0.N) (p : Fin 5000) (q : Fin 128)
    (h0 : win0_0.index t (0 : Fin 2) = win0_6.index t (0 : Fin 2)) (h1 : win0_0.index t (1 : Fin 2) = 0) (k : Fin 128) :
    ((cfg0.win 0).blk t).view.emb (ix2 p k)
      = ix2 (n0 := 100000) (n1 := 128) ((((cfg0.win 6).blk t).view.emb (ix2 p q)) 0) k := by
  funext a; apply Fin.ext
  match a with
  | ⟨0, _⟩ => show win0_0.index t (0 : Fin 2) * 5000 + 1 * p.val = win0_6.index t (0 : Fin 2) * 5000 + 1 * p.val; omega
  | ⟨1, _⟩ => show win0_0.index t (1 : Fin 2) * 128 + 1 * k.val = k.val; omega

/-- Entry `(p, k)` of relation 1's feature tile sits at the output tile's row and at channel `k`. -/
theorem feat1_emb (t : Fin cfg0.N) (p : Fin 5000) (q : Fin 128)
    (h0 : win0_1.index t (0 : Fin 2) = win0_6.index t (0 : Fin 2)) (h1 : win0_1.index t (1 : Fin 2) = 0) (k : Fin 128) :
    ((cfg0.win 1).blk t).view.emb (ix2 p k)
      = ix2 (n0 := 100000) (n1 := 128) ((((cfg0.win 6).blk t).view.emb (ix2 p q)) 0) k := by
  funext a; apply Fin.ext
  match a with
  | ⟨0, _⟩ => show win0_1.index t (0 : Fin 2) * 5000 + 1 * p.val = win0_6.index t (0 : Fin 2) * 5000 + 1 * p.val; omega
  | ⟨1, _⟩ => show win0_1.index t (1 : Fin 2) * 128 + 1 * k.val = k.val; omega

/-- Entry `(p, k)` of relation 2's feature tile sits at the output tile's row and at channel `k`. -/
theorem feat2_emb (t : Fin cfg0.N) (p : Fin 5000) (q : Fin 128)
    (h0 : win0_2.index t (0 : Fin 2) = win0_6.index t (0 : Fin 2)) (h1 : win0_2.index t (1 : Fin 2) = 0) (k : Fin 128) :
    ((cfg0.win 2).blk t).view.emb (ix2 p k)
      = ix2 (n0 := 100000) (n1 := 128) ((((cfg0.win 6).blk t).view.emb (ix2 p q)) 0) k := by
  funext a; apply Fin.ext
  match a with
  | ⟨0, _⟩ => show win0_2.index t (0 : Fin 2) * 5000 + 1 * p.val = win0_6.index t (0 : Fin 2) * 5000 + 1 * p.val; omega
  | ⟨1, _⟩ => show win0_2.index t (1 : Fin 2) * 128 + 1 * k.val = k.val; omega

/-- Entry `(k, q)` of relation 0's weight window sits at `k` and the output tile's channel. -/
theorem wt0_emb (t : Fin cfg0.N) (p : Fin 5000) (q : Fin 128)
    (h0 : win0_3.index t (0 : Fin 2) = 0) (h1 : win0_3.index t (1 : Fin 2) = 0) (h6 : win0_6.index t (1 : Fin 2) = 0) (k : Fin 128) :
    ((cfg0.win 3).blk t).view.emb (ix2 k q)
      = ix2 (n0 := 128) (n1 := 128) k ((((cfg0.win 6).blk t).view.emb (ix2 p q)) 1) := by
  funext a; apply Fin.ext
  match a with
  | ⟨0, _⟩ => show win0_3.index t (0 : Fin 2) * 128 + 1 * k.val = k.val; omega
  | ⟨1, _⟩ => show win0_3.index t (1 : Fin 2) * 128 + 1 * q.val = win0_6.index t (1 : Fin 2) * 128 + 1 * q.val; omega

/-- Entry `(k, q)` of relation 1's weight window sits at `k` and the output tile's channel. -/
theorem wt1_emb (t : Fin cfg0.N) (p : Fin 5000) (q : Fin 128)
    (h0 : win0_4.index t (0 : Fin 2) = 0) (h1 : win0_4.index t (1 : Fin 2) = 0) (h6 : win0_6.index t (1 : Fin 2) = 0) (k : Fin 128) :
    ((cfg0.win 4).blk t).view.emb (ix2 k q)
      = ix2 (n0 := 128) (n1 := 128) k ((((cfg0.win 6).blk t).view.emb (ix2 p q)) 1) := by
  funext a; apply Fin.ext
  match a with
  | ⟨0, _⟩ => show win0_4.index t (0 : Fin 2) * 128 + 1 * k.val = k.val; omega
  | ⟨1, _⟩ => show win0_4.index t (1 : Fin 2) * 128 + 1 * q.val = win0_6.index t (1 : Fin 2) * 128 + 1 * q.val; omega

/-- Entry `(k, q)` of relation 2's weight window sits at `k` and the output tile's channel. -/
theorem wt2_emb (t : Fin cfg0.N) (p : Fin 5000) (q : Fin 128)
    (h0 : win0_5.index t (0 : Fin 2) = 0) (h1 : win0_5.index t (1 : Fin 2) = 0) (h6 : win0_6.index t (1 : Fin 2) = 0) (k : Fin 128) :
    ((cfg0.win 5).blk t).view.emb (ix2 k q)
      = ix2 (n0 := 128) (n1 := 128) k ((((cfg0.win 6).blk t).view.emb (ix2 p q)) 1) := by
  funext a; apply Fin.ext
  match a with
  | ⟨0, _⟩ => show win0_5.index t (0 : Fin 2) * 128 + 1 * k.val = k.val; omega
  | ⟨1, _⟩ => show win0_5.index t (1 : Fin 2) * 128 + 1 * q.val = win0_6.index t (1 : Fin 2) * 128 + 1 * q.val; omega

/-! ## One entry of each window's tile, read off an array -/

/-- Relation 0's feature tile of an array `A`, at `(p, k)`. -/
theorem feat0_read (A : S100000x128.Idx → EReal) (t : Fin cfg0.N) (p : Fin 5000) (q : Fin 128)
    (h0 : win0_0.index t (0 : Fin 2) = win0_6.index t (0 : Fin 2)) (h1 : win0_0.index t (1 : Fin 2) = 0) (k : Fin 128) :
    ((cfg0.win 0).blk t).view.read (Elt Ideal) A (ix2 p k)
      = A (ix2 (n0 := 100000) (n1 := 128) ((((cfg0.win 6).blk t).view.emb (ix2 p q)) 0) k) := by
  rw [View.read_apply, feat0_emb t p q h0 h1 k]
  rfl

/-- Relation 1's feature tile of an array `A`, at `(p, k)`. -/
theorem feat1_read (A : S100000x128.Idx → EReal) (t : Fin cfg0.N) (p : Fin 5000) (q : Fin 128)
    (h0 : win0_1.index t (0 : Fin 2) = win0_6.index t (0 : Fin 2)) (h1 : win0_1.index t (1 : Fin 2) = 0) (k : Fin 128) :
    ((cfg0.win 1).blk t).view.read (Elt Ideal) A (ix2 p k)
      = A (ix2 (n0 := 100000) (n1 := 128) ((((cfg0.win 6).blk t).view.emb (ix2 p q)) 0) k) := by
  rw [View.read_apply, feat1_emb t p q h0 h1 k]
  rfl

/-- Relation 2's feature tile of an array `A`, at `(p, k)`. -/
theorem feat2_read (A : S100000x128.Idx → EReal) (t : Fin cfg0.N) (p : Fin 5000) (q : Fin 128)
    (h0 : win0_2.index t (0 : Fin 2) = win0_6.index t (0 : Fin 2)) (h1 : win0_2.index t (1 : Fin 2) = 0) (k : Fin 128) :
    ((cfg0.win 2).blk t).view.read (Elt Ideal) A (ix2 p k)
      = A (ix2 (n0 := 100000) (n1 := 128) ((((cfg0.win 6).blk t).view.emb (ix2 p q)) 0) k) := by
  rw [View.read_apply, feat2_emb t p q h0 h1 k]
  rfl

/-- Relation 0's weight window of a weight `W`, at `(k, q)`. -/
theorem wt0_read (W : S128x128.Idx → EReal) (t : Fin cfg0.N) (p : Fin 5000) (q : Fin 128)
    (h0 : win0_3.index t (0 : Fin 2) = 0) (h1 : win0_3.index t (1 : Fin 2) = 0) (h6 : win0_6.index t (1 : Fin 2) = 0) (k : Fin 128) :
    ((cfg0.win 3).blk t).view.read (Elt Ideal) W (ix2 k q)
      = W (ix2 (n0 := 128) (n1 := 128) k ((((cfg0.win 6).blk t).view.emb (ix2 p q)) 1)) := by
  rw [View.read_apply, wt0_emb t p q h0 h1 h6 k]
  rfl

/-- Relation 1's weight window of a weight `W`, at `(k, q)`. -/
theorem wt1_read (W : S128x128.Idx → EReal) (t : Fin cfg0.N) (p : Fin 5000) (q : Fin 128)
    (h0 : win0_4.index t (0 : Fin 2) = 0) (h1 : win0_4.index t (1 : Fin 2) = 0) (h6 : win0_6.index t (1 : Fin 2) = 0) (k : Fin 128) :
    ((cfg0.win 4).blk t).view.read (Elt Ideal) W (ix2 k q)
      = W (ix2 (n0 := 128) (n1 := 128) k ((((cfg0.win 6).blk t).view.emb (ix2 p q)) 1)) := by
  rw [View.read_apply, wt1_emb t p q h0 h1 h6 k]
  rfl

/-- Relation 2's weight window of a weight `W`, at `(k, q)`. -/
theorem wt2_read (W : S128x128.Idx → EReal) (t : Fin cfg0.N) (p : Fin 5000) (q : Fin 128)
    (h0 : win0_5.index t (0 : Fin 2) = 0) (h1 : win0_5.index t (1 : Fin 2) = 0) (h6 : win0_6.index t (1 : Fin 2) = 0) (k : Fin 128) :
    ((cfg0.win 5).blk t).view.read (Elt Ideal) W (ix2 k q)
      = W (ix2 (n0 := 128) (n1 := 128) k ((((cfg0.win 6).blk t).view.emb (ix2 p q)) 1)) := by
  rw [View.read_apply, wt2_emb t p q h0 h1 h6 k]
  rfl

/-! ## What a point writes back -/

/-- For any feature arrays and weights: the body's result on their tiles at point `t` is tile `t` of their layer. -/
theorem tile_of_layer (A0 A1 A2 : S100000x128.Idx → EReal) (W0 W1 W2 : S128x128.Idx → EReal) (t : Fin cfg0.N) :
    (cfg0.win 6).cut (grid0.coords t) (k0_pay1 (F := Ideal)
        (((cfg0.win 0).blk t).view.read (Elt Ideal) A0) (((cfg0.win 1).blk t).view.read (Elt Ideal) A1)
        (((cfg0.win 2).blk t).view.read (Elt Ideal) A2) (((cfg0.win 3).blk t).view.read (Elt Ideal) W0)
        (((cfg0.win 4).blk t).view.read (Elt Ideal) W1) (((cfg0.win 5).blk t).view.read (Elt Ideal) W2))
      = ((cfg0.win 6).blk t).view.read (Elt Ideal) (layer A0 A1 A2 W0 W1 W2) := by
  obtain ⟨e00, e01, e10, e11, e20, e21, e30, e31, e40, e41, e50, e51, e60, e61⟩ := windows_at t
  funext j
  obtain ⟨p, q, rfl⟩ : ∃ (p : Fin 5000) (q : Fin 128), j = ix2 p q := ⟨j 0, j 1, eq_ix2 (n0 := 5000) (n1 := 128) j⟩
  show k0_pay1 (F := Ideal)
        (((cfg0.win 0).blk t).view.read (Elt Ideal) A0) (((cfg0.win 1).blk t).view.read (Elt Ideal) A1)
        (((cfg0.win 2).blk t).view.read (Elt Ideal) A2) (((cfg0.win 3).blk t).view.read (Elt Ideal) W0)
        (((cfg0.win 4).blk t).view.read (Elt Ideal) W1) (((cfg0.win 5).blk t).view.read (Elt Ideal) W2) (ix2 p q)
    = layer A0 A1 A2 W0 W1 W2 (((cfg0.win 6).blk t).view.emb (ix2 p q))
  refine (tile_apply _ _ _ _ _ _ p q).trans ?_
  unfold layer
  simp only [feat0_read A0 t p q e00 e01, feat1_read A1 t p q e10 e11, feat2_read A2 t p q e20 e21,
    wt0_read W0 t p q e30 e31 e61, wt1_read W1 t p q e40 e41 e61, wt2_read W2 t p q e50 e51 e61]

/-- Point `t` writes back tile `t` of the layer of the arrays the region was entered with. -/
theorem tile_written (c : Dev nD) (t : Fin cfg0.N) :
    (dats m 0 c).flushed 6 t = ((cfg0.win 6).blk t).view.read (Elt Ideal)
      (layer (V m c main_v9) (V m c main_v19) (V m c main_v29) (V m c main_arg1) (V m c main_arg2) (V m c main_arg3)) := by
  rw [Cert.KernelIdeal.Value.flushed6]
  unfold out0_6
  rw [View.canon_unit_zero origin]
  simp only [View.ld_unit_zero (S := S5000x128) origin, View.ld_unit_zero (S := S128x128) origin]
  exact tile_of_layer (V m c (Pipeline.arrRef spec0 0)) (V m c (Pipeline.arrRef spec0 1)) (V m c (Pipeline.arrRef spec0 2))
    (V m c (Pipeline.arrRef spec0 3)) (V m c (Pipeline.arrRef spec0 4)) (V m c (Pipeline.arrRef spec0 5)) t

/-! ## The tiles cover the array -/

/-- An index of the output array is in point `t`'s tile iff each coordinate is in the tile's range on its axis. -/
theorem mem_tile (t : Fin cfg0.N) (i : S100000x128.Idx) :
    i ∈ ((cfg0.win 6).blk t).view.set ↔ ∀ a : Fin 2, win0_6.index t a * S5000x128.size a ≤ (i a).val
      ∧ (i a).val < win0_6.index t a * S5000x128.size a + S5000x128.size a := by
  show i ∈ ((View.whole main_v30).slice (win0_6.rect t)).set ↔ _
  rw [View.set_slice_whole, Rect.mem_set_unit]
  exact Iff.rfl

/-- Row `r` of the array is in the tile of point `r / 5000`, and every point writes its tile back. -/
theorem tiles_cover (i : S100000x128.Idx) :
    ∃ t : Fin cfg0.N, (cfg0.win 6).flush t = true ∧ i ∈ ((cfg0.win 6).blk t).view.set := by
  have hi0 : (i 0).val < 100000 := (i 0).isLt
  have hi1 : (i 1).val < 128 := (i 1).isLt
  have hN : grid0.N = 20 := N_0
  obtain ⟨t, ht⟩ : ∃ t : Fin cfg0.N, t.val = (i 0).val / 5000 :=
    ⟨⟨(i 0).val / 5000, by show _ < grid0.N; omega⟩, rfl⟩
  obtain ⟨-, -, -, -, -, -, -, -, -, -, -, -, e60, e61⟩ := windows_at t
  refine ⟨t, flush0_6 t, ?_⟩
  rw [mem_tile]
  intro a
  match a with
  | ⟨0, _⟩ =>
    show win0_6.index t (0 : Fin 2) * 5000 ≤ (i 0).val ∧ (i 0).val < win0_6.index t (0 : Fin 2) * 5000 + 5000
    omega
  | ⟨1, _⟩ =>
    show win0_6.index t (1 : Fin 2) * 128 ≤ (i 1).val ∧ (i 1).val < win0_6.index t (1 : Fin 2) * 128 + 128
    omega

/-! ## The output array after the run -/

/-- After the run the output array is the layer of the arrays the region was entered with. -/
theorem result_array (c : Dev nD) :
    (dats m 0 c).arrAt 6 cfg0.N
      = layer (V m c main_v9) (V m c main_v19) (V m c main_v29) (V m c main_arg1) (V m c main_arg2) (V m c main_arg3) :=
  (dats m 0 c).arrAt_eq_of_cover 6 _ (fun t _ => tile_written m c t) tiles_cover

end Cert.RelConv

end
-- ==== Proof.Aggregated.lean ====
/-
  The arrays the kernel's region is entered with.

  Before its one region the kernel's host program aggregates the node features along each relation's edges:
  it wraps a negative source index once by the node count, gathers the source rows of the feature array and
  scatter-adds them at the destination nodes into an array of zeros. The reference performs the same three
  aggregations with the same operations. So the arrays the region's first three windows read are, as functions
  of the arguments, the reference's three aggregated arrays; the weights are the arguments themselves.
-/
import proofs.«148404_j62414464745626_1_alg».proof.Proof.Gen.KernelIdeal.Frame
import proofs.«148404_j62414464745626_1_alg».proof.Proof.Gen.ReferenceIdeal.Read
import Idealize.ShloMosaic.Lib.StableHlo.Run

noncomputable section

namespace Cert.RelConv

open Idealize.ShloMosaic Idealize.ShloMosaic.TcCoe Idealize.SL.Sem Idealize.ShloMosaic.StableHlo
open Cert.KernelIdeal Cert.KernelIdeal.Gen

variable (m : (ℓ : Loc nD τ sig) → Buf (Elt Ideal) ℓ)

/-- Relation 0: the first window's array is the features gathered at `src0` and summed at `dst0`. -/
theorem aggregated0 (c : Dev nD) :
    (V m c main_v9 : S100000x128.Idx → EReal)
      = Cert.ReferenceIdeal.Read.val_main_v10 (F := Ideal) (m ((c : Thread nD τ).loc main_arg0))
          (m ((c : Thread nD τ).loc main_arg4)) (m ((c : Thread nD τ).loc main_arg5)) := by
  dsimp only [Gen.V, Gen.hostOps0]
  after_results_simp <;> rfl

/-- Relation 1: the second window's array is the features gathered at `src1` and summed at `dst1`. -/
theorem aggregated1 (c : Dev nD) :
    (V m c main_v19 : S100000x128.Idx → EReal)
      = Cert.ReferenceIdeal.Read.val_main_v22 (F := Ideal) (m ((c : Thread nD τ).loc main_arg0))
          (m ((c : Thread nD τ).loc main_arg6)) (m ((c : Thread nD τ).loc main_arg7)) := by
  dsimp only [Gen.V, Gen.hostOps0]
  after_results_simp <;> rfl

/-- Relation 2: the third window's array is the features gathered at `src2` and summed at `dst2`. -/
theorem aggregated2 (c : Dev nD) :
    (V m c main_v29 : S100000x128.Idx → EReal)
      = Cert.ReferenceIdeal.Read.val_main_v34 (F := Ideal) (m ((c : Thread nD τ).loc main_arg0))
          (m ((c : Thread nD τ).loc main_arg8)) (m ((c : Thread nD τ).loc main_arg9)) := by
  dsimp only [Gen.V, Gen.hostOps0]
  after_results_simp <;> rfl

end Cert.RelConv

end
-- ==== Proof.Joined.lean ====
/-
  The kernel's output array as a function of the arguments.

  After the run the output array is the layer of the arrays the region was entered with. Its first three
  operands are the features aggregated along each relation's edges — the same terms of the arguments as the
  reference's three aggregated arrays — and its last three are the weight arguments, which no host operation
  writes. So the output array is the layer of the reference's aggregated arrays and the weights.
-/
import proofs.«148404_j62414464745626_1_alg».proof.Proof.Whole
import proofs.«148404_j62414464745626_1_alg».proof.Proof.Aggregated

noncomputable section

namespace Cert.RelConv

open Cert.KernelIdeal Cert.KernelIdeal.Gen Idealize.ShloMosaic Idealize.ShloMosaic.TcCoe Idealize.SL.Sem

variable (m : (ℓ : Loc nD τ sig) → Buf (Elt Ideal) ℓ)

/-- The output array after the run, in the arguments. -/
theorem result_in_arguments (c : Dev nD) :
    (dats m 0 c).arrAt 6 cfg0.N
      = layer
          (Cert.ReferenceIdeal.Read.val_main_v10 (F := Ideal) (m ((c : Thread nD τ).loc main_arg0))
            (m ((c : Thread nD τ).loc main_arg4)) (m ((c : Thread nD τ).loc main_arg5)))
          (Cert.ReferenceIdeal.Read.val_main_v22 (F := Ideal) (m ((c : Thread nD τ).loc main_arg0))
            (m ((c : Thread nD τ).loc main_arg6)) (m ((c : Thread nD τ).loc main_arg7)))
          (Cert.ReferenceIdeal.Read.val_main_v34 (F := Ideal) (m ((c : Thread nD τ).loc main_arg0))
            (m ((c : Thread nD τ).loc main_arg8)) (m ((c : Thread nD τ).loc main_arg9)))
          (m ((c : Thread nD τ).loc main_arg1)) (m ((c : Thread nD τ).loc main_arg2)) (m ((c : Thread nD τ).loc main_arg3)) := by
  rw [result_array m c, aggregated0 m c, aggregated1 m c, aggregated2 m c, V_main_arg1 m c, V_main_arg2 m c,
    V_main_arg3 m c]

end Cert.RelConv

end
-- ==== Proof.RefLayer.lean ====
/-
  The reference computes the layer.

  The reference adds, relation by relation, the product of the relation's aggregated features with its weight
  to a running total that starts at zero, and ends with the maximum with zero. Read at node `n`, channel `q`,
  each product is the sum over `k` of the aggregated row `n` against the weight's column `q`; the leading zero
  drops out of the total, and what is left is the layer's entry.
-/
import proofs.«148404_j62414464745626_1_alg».proof.Proof.Gen.ReferenceIdeal.Read
import proofs.«148404_j62414464745626_1_alg».proof.Proof.Layer

noncomputable section

open scoped BigOperators

namespace Cert.RelConv

open Idealize.ShloMosaic Idealize.ShloMosaic.ValueIdx Cert.ReferenceIdeal Cert.ReferenceIdeal.Read

/-- The reference's result is the layer of its three aggregated arrays and the three weights. -/
theorem reference_eq (x0 : (⟨S100000x128, .f32⟩ : BufTy).Contents (Elt Ideal)) (x1 x2 x3 : (⟨S128x128, .f32⟩ : BufTy).Contents (Elt Ideal))
    (x4 x5 x6 x7 x8 x9 : (⟨S600000, .i32⟩ : BufTy).Contents (Elt Ideal)) :
    val_main_v37 (F := Ideal) x0 x1 x2 x3 x4 x5 x6 x7 x8 x9
      = layer (val_main_v10 (F := Ideal) x0 x4 x5) (val_main_v22 (F := Ideal) x0 x6 x7) (val_main_v34 (F := Ideal) x0 x8 x9) x1 x2 x3 := by
  funext i
  obtain ⟨n, q, rfl⟩ : ∃ (n : Fin 100000) (q : Fin 128), i = ix2 n q := ⟨i 0, i 1, eq_ix2 i⟩
  have l11 : ∀ k : Fin 128, lidx_main_v11 (ix2 n q) k = ix2 n k := fun k => funext fun a => Fin.ext (by
    match a with | ⟨0, _⟩ => rfl | ⟨1, _⟩ => rfl)
  have r11 : ∀ k : Fin 128, ridx_main_v11 (ix2 n q) k = ix2 k q := fun k => funext fun a => Fin.ext (by
    match a with | ⟨0, _⟩ => rfl | ⟨1, _⟩ => rfl)
  have l23 : ∀ k : Fin 128, lidx_main_v23 (ix2 n q) k = ix2 n k := fun k => funext fun a => Fin.ext (by
    match a with | ⟨0, _⟩ => rfl | ⟨1, _⟩ => rfl)
  have r23 : ∀ k : Fin 128, ridx_main_v23 (ix2 n q) k = ix2 k q := fun k => funext fun a => Fin.ext (by
    match a with | ⟨0, _⟩ => rfl | ⟨1, _⟩ => rfl)
  have l35 : ∀ k : Fin 128, lidx_main_v35 (ix2 n q) k = ix2 n k := fun k => funext fun a => Fin.ext (by
    match a with | ⟨0, _⟩ => rfl | ⟨1, _⟩ => rfl)
  have r35 : ∀ k : Fin 128, ridx_main_v35 (ix2 n q) k = ix2 k q := fun k => funext fun a => Fin.ext (by
    match a with | ⟨0, _⟩ => rfl | ⟨1, _⟩ => rfl)
  rw [val_main_v37_apply, val_main_v36_apply, val_main_v24_apply, val_main_v12_apply, val_main_v11_apply,
    val_main_v23_apply, val_main_v35_apply, val_main_v0_apply, val_main_cst_apply, val_main_call0_v0_apply,
    val_main_call0_cst_apply, layer_apply]
  simp only [l11, r11, l23, r23, l35, r35, Ideal.addf_def, Ideal.maximumf_def, Ideal.ofBits_def, Ideal.ofBits_zero_f32,
    zero_add]

end Cert.RelConv

end
-- ==== Proof.lean ====
/-
  A relational graph-convolution layer: the tiled kernel against the plain reference, on the extended reals.

  Both programs first aggregate the node features along the edges of three relations (a gather of the source
  rows, a scatter-add at the destination nodes), with the same host operations. The kernel then computes, tile
  by tile of 5000 nodes, the positive part of the sum of the three aggregated tiles' products with the
  relations' weights; the reference adds the three whole products to a zero total and takes the positive part.
  A row of the result depends only on that row of the aggregated features, so the 20 tiles put together are the
  whole-array layer (Proof/Whole.lean); the reference's zero total drops out (Proof/RefLayer.lean); rounding the
  matmul operands to bf16 is the identity on the extended reals (Proof/TileValue.lean). No algebraic law beyond
  `0 + x = x` joins the two sides, so the precondition on the inputs is not used.
-/
import proofs.«148404_j62414464745626_1_alg».proof.Defs
import proofs.«148404_j62414464745626_1_alg».proof.Proof.Gen.Kernel
import proofs.«148404_j62414464745626_1_alg».proof.Proof.Gen.Kernel.Skeleton
import proofs.«148404_j62414464745626_1_alg».proof.Proof.Gen.Kernel.Launch
import proofs.«148404_j62414464745626_1_alg».proof.Proof.Gen.Kernel.Points
import proofs.«148404_j62414464745626_1_alg».proof.Proof.Gen.Kernel.Frame
import proofs.«148404_j62414464745626_1_alg».proof.Proof.Gen.KernelIdeal
import proofs.«148404_j62414464745626_1_alg».proof.Proof.Gen.KernelIdeal.Skeleton
import proofs.«148404_j62414464745626_1_alg».proof.Proof.Gen.KernelIdeal.Launch
import proofs.«148404_j62414464745626_1_alg».proof.Proof.Gen.KernelIdeal.Points
import proofs.«148404_j62414464745626_1_alg».proof.Proof.Gen.KernelIdeal.Frame
import proofs.«148404_j62414464745626_1_alg».proof.Proof.Gen.ReferenceIdeal
import proofs.«148404_j62414464745626_1_alg».proof.Proof.Gen.Pre_finite_inputs
import proofs.«148404_j62414464745626_1_alg».proof.Proof.Gen.KernelIdeal.Value
import proofs.«148404_j62414464745626_1_alg».proof.Proof.Gen.ReferenceIdeal.Run
import proofs.«148404_j62414464745626_1_alg».proof.Proof.Gen.ReferenceIdeal.Read
import proofs.«148404_j62414464745626_1_alg».proof.Proof.Joined
import proofs.«148404_j62414464745626_1_alg».proof.Proof.RefLayer
import Idealize.ShloMosaic.Adequacy
import Idealize.ShloMosaic.Init

noncomputable section

namespace Cert.Proof

open Idealize.ShloMosaic Idealize.ShloMosaic.TcCoe Idealize.SL.Sem

/-- The kernel as printed runs and leaves its arguments unchanged. -/
theorem frame_kernel : Cert.frame_Kernel := fun m ρ _ => Cert.Kernel.Gen.frame m ρ

/-- So does the kernel read on the extended reals. -/
theorem frame_kernel_ideal : Cert.frame_KernelIdeal := fun m ρ _ => Cert.KernelIdeal.Gen.frame m ρ

/-- The reference runs and leaves its arguments unchanged: its run with the result dropped. -/
theorem frame_reference_ideal : Cert.frame_ReferenceIdeal := fun m ρ _ =>
  (θ_run Cert.ReferenceIdeal.defs _ _).mono (fun _ h c => (h c).2) (Cert.ReferenceIdeal.Value.run (F := Ideal) m ρ)

/-- The idealization rewrote no operation. -/
theorem preserves : Cert.preserves_Kernel_KernelIdeal := trivial

/-- From memories agreeing on the arguments both programs end with the layer of the three aggregated feature
    arrays and the three weights: the kernel tile by tile, the reference from a zero total. -/
theorem algebraic : Cert.algebraic_KernelIdeal_ReferenceIdeal := by
  intro m ρ m' ρ' _ hagree
  refine ⟨fun c => Cert.RelConv.layer
      (Cert.ReferenceIdeal.Read.val_main_v10 (F := Ideal) (m ((c : Thread Cert.KernelIdeal.nD Cert.KernelIdeal.τ).loc Cert.KernelIdeal.main_arg0))
        (m ((c : Thread Cert.KernelIdeal.nD Cert.KernelIdeal.τ).loc Cert.KernelIdeal.main_arg4)) (m ((c : Thread Cert.KernelIdeal.nD Cert.KernelIdeal.τ).loc Cert.KernelIdeal.main_arg5)))
      (Cert.ReferenceIdeal.Read.val_main_v22 (F := Ideal) (m ((c : Thread Cert.KernelIdeal.nD Cert.KernelIdeal.τ).loc Cert.KernelIdeal.main_arg0))
        (m ((c : Thread Cert.KernelIdeal.nD Cert.KernelIdeal.τ).loc Cert.KernelIdeal.main_arg6)) (m ((c : Thread Cert.KernelIdeal.nD Cert.KernelIdeal.τ).loc Cert.KernelIdeal.main_arg7)))
      (Cert.ReferenceIdeal.Read.val_main_v34 (F := Ideal) (m ((c : Thread Cert.KernelIdeal.nD Cert.KernelIdeal.τ).loc Cert.KernelIdeal.main_arg0))
        (m ((c : Thread Cert.KernelIdeal.nD Cert.KernelIdeal.τ).loc Cert.KernelIdeal.main_arg8)) (m ((c : Thread Cert.KernelIdeal.nD Cert.KernelIdeal.τ).loc Cert.KernelIdeal.main_arg9)))
      (m ((c : Thread Cert.KernelIdeal.nD Cert.KernelIdeal.τ).loc Cert.KernelIdeal.main_arg1))
      (m ((c : Thread Cert.KernelIdeal.nD Cert.KernelIdeal.τ).loc Cert.KernelIdeal.main_arg2))
      (m ((c : Thread Cert.KernelIdeal.nD Cert.KernelIdeal.τ).loc Cert.KernelIdeal.main_arg3)), ?_, ?_⟩
  · exact (θ_run Cert.KernelIdeal.defs _ _).mono
      (fun r h c => ⟨(h c).1.trans (Cert.RelConv.result_in_arguments m c), (h c).2⟩)
      (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    rw [Cert.ReferenceIdeal.Read.val_main_v37_eq, Cert.RelConv.reference_eq, (hagree c).1, (hagree c).2.1,
      (hagree c).2.2.1, (hagree c).2.2.2.1, (hagree c).2.2.2.2.1, (hagree c).2.2.2.2.2.1, (hagree c).2.2.2.2.2.2.1,
      (hagree c).2.2.2.2.2.2.2.1, (hagree c).2.2.2.2.2.2.2.2.1, (hagree c).2.2.2.2.2.2.2.2.2]

theorem claim : Cert.Claim := ⟨Cert.Kernel.Gen.facts, Cert.KernelIdeal.Gen.facts, Cert.ReferenceIdeal.Gen.facts,
  Cert.Pre_finite_inputs.Gen.facts, frame_kernel, frame_kernel_ideal, frame_reference_ideal, preserves, algebraic⟩

end Cert.Proof

end
